-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S4x128x128 : Shape := ⟨3, ![4, 128, 128]⟩
abbrev S4x128 : Shape := ⟨2, ![4, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn {F : FTy → Type} [FloatOps F] (main_arg0 : FVec F S50000x128 .f32) (main_arg1 : IVec S600000 32) (main_arg2 : IVec S600000 32) (main_arg3 : FVec F S4x128x128 .f32) (main_arg4 : FVec F S4x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  main_v13
-- ==== Kernel.lean ====
abbrev S50000x128 : Shape := ⟨2, ![50000, 128]⟩
abbrev S600000 : Shape := ⟨1, ![600000]⟩
abbrev S4x128x128 : Shape := ⟨3, ![4, 128, 128]⟩
abbrev S4x128 : Shape := ⟨2, ![4, 128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩

abbrev nBuf : Space → Nat
  | .hbm => 113
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S4x128x128, .f32⟩
  | .hbm, ⟨4, _⟩ => ⟨S4x128, .f32⟩
  | .hbm, ⟨5, _⟩ => ⟨S_, .f32⟩
  | .hbm, ⟨6, _⟩ => ⟨S600000, .f32⟩
  | .hbm, ⟨7, _⟩ => ⟨S_, .f32⟩
  | .hbm, ⟨8, _⟩ => ⟨S50000, .f32⟩
  | .hbm, ⟨9, _⟩ => ⟨S600000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S600000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000, .f32⟩
  | .hbm, ⟨24, _⟩ => ⟨S50000x1, .f32⟩
  | .hbm, ⟨25, _⟩ => ⟨S50000x128, .f32⟩
  | .hbm, ⟨26, _⟩ => ⟨S50000x128, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .f32⟩
  | .hbm, ⟨37, _⟩ => ⟨S50000x128, .f32⟩
  | .hbm, ⟨38, _⟩ => ⟨S600000x1, .i32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128x128, .f32⟩
  | .hbm, ⟨43, _⟩ => ⟨S128x128, .f32⟩
  | .hbm, ⟨44, _⟩ => ⟨S1x128, .f32⟩
  | .hbm, ⟨45, _⟩ => ⟨S128, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S_, .f32⟩
  | .hbm, ⟨59, _⟩ => ⟨S50000x128, .f32⟩
  | .hbm, ⟨60, _⟩ => ⟨S600000x1, .i32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S1x128x128, .f32⟩
  | .hbm, ⟨65, _⟩ => ⟨S128x128, .f32⟩
  | .hbm, ⟨66, _⟩ => ⟨S1x128, .f32⟩
  | .hbm, ⟨67, _⟩ => ⟨S128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S600000, .i32⟩
  | .hbm, ⟨73, _⟩ => ⟨S600000, .i1⟩
  | .hbm, ⟨74, _⟩ => ⟨S_, .i32⟩
  | .hbm, ⟨75, _⟩ => ⟨S600000, .i32⟩
  | .hbm, ⟨76, _⟩ => ⟨S600000, .i32⟩
  | .hbm, ⟨77, _⟩ => ⟨S600000, .i32⟩
  | .hbm, ⟨78, _⟩ => ⟨S600000x1, .i32⟩
  | .hbm, ⟨79, _⟩ => ⟨S600000x128, .f32⟩
  | .hbm, ⟨80, _⟩ => ⟨S_, .f32⟩
  | .hbm, ⟨81, _⟩ => ⟨S50000x128, .f32⟩
  | .hbm, ⟨82, _⟩ => ⟨S600000x1, .i32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S1x128x128, .f32⟩
  | .hbm, ⟨87, _⟩ => ⟨S128x128, .f32⟩
  | .hbm, ⟨88, _⟩ => ⟨S1x128, .f32⟩
  | .hbm, ⟨89, _⟩ => ⟨S128, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S_, .i32⟩
  | .hbm, ⟨94, _⟩ => ⟨S600000, .i32⟩
  | .hbm, ⟨95, _⟩ => ⟨S600000, .i1⟩
  | .hbm, ⟨96, _⟩ => ⟨S_, .i32⟩
  | .hbm, ⟨97, _⟩ => ⟨S600000, .i32⟩
  | .hbm, ⟨98, _⟩ => ⟨S600000, .i32⟩
  | .hbm, ⟨99, _⟩ => ⟨S600000, .i32⟩
  | .hbm, ⟨100, _⟩ => ⟨S600000x1, .i32⟩
  | .hbm, ⟨101, _⟩ => ⟨S600000x128, .f32⟩
  | .hbm, ⟨102, _⟩ => ⟨S_, .f32⟩
  | .hbm, ⟨103, _⟩ => ⟨S50000x128, .f32⟩
  | .hbm, ⟨104, _⟩ => ⟨S600000x1, .i32⟩
  | .hbm, ⟨105, _⟩ => ⟨S50000x128, .f32⟩
  | .hbm, ⟨106, _⟩ => ⟨S50000x128, .f32⟩
  | .hbm, ⟨107, _⟩ => ⟨S50000x128, .f32⟩
  | .hbm, ⟨108, _⟩ => ⟨S1x128x128, .f32⟩
  | .hbm, ⟨109, _⟩ => ⟨S128x128, .f32⟩
  | .hbm, ⟨110, _⟩ => ⟨S1x128, .f32⟩
  | .hbm, ⟨111, _⟩ => ⟨S128, .f32⟩
  | .hbm, ⟨112, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S128, .f32⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_c_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_9 : Ref sig .tc := ⟨.hbm, 71, rfl⟩
abbrev main_v55 : Ref sig .tc := ⟨.hbm, 72, rfl⟩
abbrev main_v56 : Ref sig .tc := ⟨.hbm, 73, rfl⟩
abbrev main_c_10 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_11 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_c_12 : Ref sig .tc := ⟨.hbm, 93, rfl⟩
abbrev main_v74 : Ref sig .tc := ⟨.hbm, 94, rfl⟩
abbrev main_v75 : Ref sig .tc := ⟨.hbm, 95, rfl⟩
abbrev main_c_13 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_14 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v28) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v66) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v85) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v87) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v90) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S600000 : Shape := ⟨1, ![600000]⟩
abbrev S4x128x128 : Shape := ⟨3, ![4, 128, 128]⟩
abbrev S4x128 : Shape := ⟨2, ![4, 128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S4x128x128, .f32⟩
  | .hbm, ⟨4, _⟩ => ⟨S4x128, .f32⟩
  | .hbm, ⟨5, _⟩ => ⟨S_, .f32⟩
  | .hbm, ⟨6, _⟩ => ⟨S600000, .f32⟩
  | .hbm, ⟨7, _⟩ => ⟨S_, .f32⟩
  | .hbm, ⟨8, _⟩ => ⟨S50000, .f32⟩
  | .hbm, ⟨9, _⟩ => ⟨S600000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S600000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000, .f32⟩
  | .hbm, ⟨24, _⟩ => ⟨S50000x1, .f32⟩
  | .hbm, ⟨25, _⟩ => ⟨S50000x128, .f32⟩
  | .hbm, ⟨26, _⟩ => ⟨S50000x128, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .f32⟩
  | .hbm, ⟨37, _⟩ => ⟨S50000x128, .f32⟩
  | .hbm, ⟨38, _⟩ => ⟨S600000x1, .i32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128x128, .f32⟩
  | .hbm, ⟨43, _⟩ => ⟨S128x128, .f32⟩
  | .hbm, ⟨44, _⟩ => ⟨S50000x128, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S600000, .i32⟩
  | .hbm, ⟨54, _⟩ => ⟨S600000, .i1⟩
  | .hbm, ⟨55, _⟩ => ⟨S_, .i32⟩
  | .hbm, ⟨56, _⟩ => ⟨S600000, .i32⟩
  | .hbm, ⟨57, _⟩ => ⟨S600000, .i32⟩
  | .hbm, ⟨58, _⟩ => ⟨S600000, .i32⟩
  | .hbm, ⟨59, _⟩ => ⟨S600000x1, .i32⟩
  | .hbm, ⟨60, _⟩ => ⟨S600000x128, .f32⟩
  | .hbm, ⟨61, _⟩ => ⟨S_, .f32⟩
  | .hbm, ⟨62, _⟩ => ⟨S50000x128, .f32⟩
  | .hbm, ⟨63, _⟩ => ⟨S600000x1, .i32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S1x128x128, .f32⟩
  | .hbm, ⟨68, _⟩ => ⟨S128x128, .f32⟩
  | .hbm, ⟨69, _⟩ => ⟨S50000x128, .f32⟩
  | .hbm, ⟨70, _⟩ => ⟨S1x128, .f32⟩
  | .hbm, ⟨71, _⟩ => ⟨S128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S600000, .i32⟩
  | .hbm, ⟨79, _⟩ => ⟨S600000, .i1⟩
  | .hbm, ⟨80, _⟩ => ⟨S_, .i32⟩
  | .hbm, ⟨81, _⟩ => ⟨S600000, .i32⟩
  | .hbm, ⟨82, _⟩ => ⟨S600000, .i32⟩
  | .hbm, ⟨83, _⟩ => ⟨S600000, .i32⟩
  | .hbm, ⟨84, _⟩ => ⟨S600000x1, .i32⟩
  | .hbm, ⟨85, _⟩ => ⟨S600000x128, .f32⟩
  | .hbm, ⟨86, _⟩ => ⟨S_, .f32⟩
  | .hbm, ⟨87, _⟩ => ⟨S50000x128, .f32⟩
  | .hbm, ⟨88, _⟩ => ⟨S600000x1, .i32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S1x128x128, .f32⟩
  | .hbm, ⟨93, _⟩ => ⟨S128x128, .f32⟩
  | .hbm, ⟨94, _⟩ => ⟨S50000x128, .f32⟩
  | .hbm, ⟨95, _⟩ => ⟨S1x128, .f32⟩
  | .hbm, ⟨96, _⟩ => ⟨S128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S50000x128, .f32⟩
  | .hbm, ⟨101, _⟩ => ⟨S50000x128, .f32⟩
  | .hbm, ⟨102, _⟩ => ⟨S_, .i32⟩
  | .hbm, ⟨103, _⟩ => ⟨S600000, .i32⟩
  | .hbm, ⟨104, _⟩ => ⟨S600000, .i1⟩
  | .hbm, ⟨105, _⟩ => ⟨S_, .i32⟩
  | .hbm, ⟨106, _⟩ => ⟨S600000, .i32⟩
  | .hbm, ⟨107, _⟩ => ⟨S600000, .i32⟩
  | .hbm, ⟨108, _⟩ => ⟨S600000, .i32⟩
  | .hbm, ⟨109, _⟩ => ⟨S600000x1, .i32⟩
  | .hbm, ⟨110, _⟩ => ⟨S600000x128, .f32⟩
  | .hbm, ⟨111, _⟩ => ⟨S_, .f32⟩
  | .hbm, ⟨112, _⟩ => ⟨S50000x128, .f32⟩
  | .hbm, ⟨113, _⟩ => ⟨S600000x1, .i32⟩
  | .hbm, ⟨114, _⟩ => ⟨S50000x128, .f32⟩
  | .hbm, ⟨115, _⟩ => ⟨S50000x128, .f32⟩
  | .hbm, ⟨116, _⟩ => ⟨S50000x128, .f32⟩
  | .hbm, ⟨117, _⟩ => ⟨S1x128x128, .f32⟩
  | .hbm, ⟨118, _⟩ => ⟨S128x128, .f32⟩
  | .hbm, ⟨119, _⟩ => ⟨S50000x128, .f32⟩
  | .hbm, ⟨120, _⟩ => ⟨S1x128, .f32⟩
  | .hbm, ⟨121, _⟩ => ⟨S128, .f32⟩
  | .hbm, ⟨122, _⟩ => ⟨S1x128, .f32⟩
  | .hbm, ⟨123, _⟩ => ⟨S50000x128, .f32⟩
  | .hbm, ⟨124, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_6 : Ref sig .tc := ⟨.hbm, 52, rfl⟩
abbrev main_v39 : Ref sig .tc := ⟨.hbm, 53, rfl⟩
abbrev main_v40 : Ref sig .tc := ⟨.hbm, 54, rfl⟩
abbrev main_c_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_c_9 : Ref sig .tc := ⟨.hbm, 77, rfl⟩
abbrev main_v61 : Ref sig .tc := ⟨.hbm, 78, rfl⟩
abbrev main_v62 : Ref sig .tc := ⟨.hbm, 79, rfl⟩
abbrev main_c_10 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_11 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_c_12 : Ref sig .tc := ⟨.hbm, 102, rfl⟩
abbrev main_v83 : Ref sig .tc := ⟨.hbm, 103, rfl⟩
abbrev main_v84 : Ref sig .tc := ⟨.hbm, 104, rfl⟩
abbrev main_c_13 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_14 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run, with its result array kept.

  The program is four matrix-unit regions among four stretches of host operations. Its run is a fold through eight
  boundaries: a stretch of host operations takes the buffers' contents to what its operations compute from them, a
  region takes them to the same contents with its output array replaced by what its write-backs leave. After the
  last region every buffer that outlives a region holds the last boundary's contents (`W8`). The frame of this
  program reads that at the five argument arrays, which no segment writes. Here the same run is read at one more
  buffer, the result array `main_v90`: it ends at `W8` there too, and `W8` there is what region 3's write-backs
  leave (`result_is_region3`).
-/
import proofs.«125889_j90769838833737_1_alg».proof.Proof.Gen.KernelIdeal.Frame

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- Every weakly fair execution of @main terminates, nothing faulting, with the result array at the last
    boundary's contents and the argument arrays as launched. -/
theorem run_kept : θ_run defs (onTc (τ := τ) (main (F := F))) ⟨m, fun _ => 0, ρ⟩ (fun r => ∀ c : Dev nD,
      r.2.mem ((c.tc : Thread nD τ).loc main_v90) = W8 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v90 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

/-- The result array is region 3's output array, so the last boundary holds there what that region's write-backs
    leave. -/
theorem result_is_region3 (c : Dev nD) :
    W8 m ρ c (Proc.devRef .tc main_v90) = (dat3 (V7 m ρ) c).arrAt 3 cfg3.N :=
  W8_arr m ρ c 3

end Cert.KernelIdeal.Net

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.LibBroadcastInDim.lean ====
/-
  Columns and rows set and spread by `broadcast_in_dim`, read at an index.

  A host program spreads a per-row scale over a matrix in two steps: the vector [a] is set as a column [a, 1]
  (`dims = [0]`), and the column is spread along the rows of an [a, b] array (`dims = [0, 1]`).  A per-column vector
  goes the other way round: [b] set as a row [1, b] (`dims = [1]`), the row spread down the rows of [a, b]
  (`dims = [0, 1]`).  Read at `(p, q)` the first array holds the vector's entry `p`, the second the vector's entry `q`.
  One lemma per step, for every extent (an axis of extent one is read at `0`, which is also its only index):
  • `vec_as_col`: [a] → [a, 1] at `(p, u)` is the vector at `p`;
  • `col_spread`: [a, 1] → [a, b] at `(p, q)` is the column at `(p, 0)`;
  • `vec_as_row`: [b] → [1, b] at `(u, q)` is the vector at `q`;
  • `row_spread`: [1, b] → [a, b] at `(p, q)` is the row at `(0, q)`.
-/
import Idealize.ShloMosaic.Lib.Pipeline.Value
import Idealize.ShloMosaic.Lib.ValueIdx

noncomputable section

namespace Cert.Lib.InDim

open Idealize.ShloMosaic Idealize.ShloMosaic.ValueIdx

variable {α : Type}

/-- A vector [a] set as a column [a, 1]: entry `(p, u)` is the vector's entry `p`. -/
theorem vec_as_col {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column [a, 1] spread along the rows of an [a, b] array: entry `(p, q)` is the column's entry in row `p`. -/
theorem col_spread {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A vector [b] set as a row [1, b]: entry `(u, q)` is the vector's entry `q`. -/
theorem vec_as_row {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread down the rows of an [a, b] array: entry `(p, q)` is the row's entry in column `q`. -/
theorem row_spread {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end Cert.Lib.InDim

end
-- ==== Proof.Layer.lean ====
/-
  One dense layer of the graph network, as a function of whole arrays.

  A layer takes the aggregated node features X (one row of 128 numbers per node), a 128 x 128 weight matrix W
  and a bias vector b, and gives node p, output channel q the number

      (sum over k < 128 of X(p, k) * W(k, q)) + b(q).

  Both programs compute it. The kernel does so on the matrix unit, on blocks of 2000 rows: it narrows X and W to
  bf16 (no change on the extended reals), multiplies them into a zero accumulator, sets b as a [1, 128] row, spreads
  the row over the block and adds. The reference does so on the host for all rows at once: a dot_general of X and
  W, b set as a row by one broadcast, spread over the rows by another, and an addition. Over the extended reals
  each reads, entry by entry, as the formula above (`body_eq`, `host_eq`); no property of the numbers is used,
  only that a product of matrices is the sum of products it is defined as.

  Row p of the result depends on row p of X only, so the layer of a block of rows is the block of the layer
  (`dense_rows`): that is what lets the kernel's blocks be put together into the whole array.
-/
import Idealize.ShloMosaic.PureOps.Ideal.Laws
import Idealize.ShloMosaic.Lib.ValueIdx
import Idealize.ShloMosaic.Lib.ValueLayout
import Idealize.ShloMosaic.Lib.Pipeline.Value
import proofs.«125889_j90769838833737_1_alg».proof.Proof.LibPlainDot
import proofs.«125889_j90769838833737_1_alg».proof.Proof.LibBroadcastInDim

noncomputable section

namespace Cert.GraphConv

open Idealize.ShloMosaic Idealize.ShloMosaic.ValueIdx

/-- The layer: entry (p, q) is row p of `x` against column q of `w`, plus the bias of channel q. -/
def dense {n : ℕ} (x : (⟨2, ![n, 128]⟩ : Shape).Idx → EReal) (w : (⟨2, ![128, 128]⟩ : Shape).Idx → EReal)
    (b : (⟨1, ![128]⟩ : Shape).Idx → EReal) : (⟨2, ![n, 128]⟩ : Shape).Idx → EReal :=
  fun i => (∑ k : Fin 128, x (ix2 (i 0) k) * w (ix2 k (i 1))) + b (ix1 (i 1))

theorem dense_apply {n : ℕ} (x : (⟨2, ![n, 128]⟩ : Shape).Idx → EReal) (w : (⟨2, ![128, 128]⟩ : Shape).Idx → EReal)
    (b : (⟨1, ![128]⟩ : Shape).Idx → EReal) (p : Fin n) (q : Fin 128) :
    dense x w b (ix2 p q) = (∑ k : Fin 128, x (ix2 p k) * w (ix2 k q)) + b (ix1 q) := rfl

/-- The kernel body's arithmetic on one block of rows is the layer of that block. -/
theorem body_eq {r : ℕ} (d : DotDims ⟨2, ![r, 128]⟩ ⟨2, ![128, 128]⟩ ⟨2, ![r, 128]⟩) (hd : d = DotDims.plain r 128 128)
    (x : FVec Ideal ⟨2, ![r, 128]⟩ .f32) (w : FVec Ideal ⟨2, ![128, 128]⟩ .f32) (b : FVec Ideal ⟨1, ![128]⟩ .f32)
    (hx : (⟨2, ![r, 128]⟩ : Shape).ShapeCasts ⟨2, ![r, 128]⟩) (hw : (⟨2, ![128, 128]⟩ : Shape).ShapeCasts ⟨2, ![128, 128]⟩)
    (hb : (⟨1, ![128]⟩ : Shape).ShapeCasts ⟨1, ![128]⟩) (hrow : (⟨1, ![128]⟩ : Shape).ShapeCasts ⟨2, ![1, 128]⟩)
    (hspread : (⟨2, ![1, 128]⟩ : Shape).Broadcasts ⟨2, ![r, 128]⟩) (hbits : FTy.bits .bf16 < FTy.bits .f32) :
    addf (matmul (F := Ideal) d none (truncf .bf16 (shapeCast ⟨2, ![r, 128]⟩ x hx) hbits)
        (truncf .bf16 (shapeCast ⟨2, ![128, 128]⟩ w hw) hbits) (constant ⟨2, ![r, 128]⟩ .f32 0x00000000#32))
      (broadcastTo ⟨2, ![r, 128]⟩ (shapeCast ⟨2, ![1, 128]⟩ (shapeCast ⟨1, ![128]⟩ b hb) hrow) hspread)
      = dense x w b := by
  funext j
  obtain ⟨p, q, rfl⟩ : ∃ (p : Fin r) (q : Fin 128), j = ix2 p q := ⟨j 0, j 1, eq_ix2 j⟩
  rw [shapeCast_self, shapeCast_self, shapeCast_self, addf_apply]
  refine (congrArg₂ (· + ·) ?_ ?_).trans (dense_apply x w b p q).symm
  · exact Cert.PlainDot.matmul_zero_apply d hd x w p q
  · rw [broadcastTo_1b_ab_apply, shapeCast_a_1a_apply]

/-- The host's product, bias row and addition over all rows are the layer. -/
theorem host_eq {n : ℕ} (d : DotDims ⟨2, ![n, 128]⟩ ⟨2, ![128, 128]⟩ ⟨2, ![n, 128]⟩) (hd : d = DotDims.plain n 128 128)
    (x : FVec Ideal ⟨2, ![n, 128]⟩ .f32) (w : FVec Ideal ⟨2, ![128, 128]⟩ .f32) (b : FVec Ideal ⟨1, ![128]⟩ .f32)
    (hrow : (⟨1, ![128]⟩ : Shape).BroadcastsInDim ⟨2, ![1, 128]⟩ ![1])
    (hspread : (⟨2, ![1, 128]⟩ : Shape).BroadcastsInDim ⟨2, ![n, 128]⟩ ![0, 1]) :
    addf (Host.dotGeneral (F := Ideal) d none x w)
      (broadcastInDim ⟨2, ![n, 128]⟩ ![0, 1] hspread (broadcastInDim ⟨2, ![1, 128]⟩ ![1] hrow b))
      = dense x w b := by
  funext j
  obtain ⟨p, q, rfl⟩ : ∃ (p : Fin n) (q : Fin 128), j = ix2 p q := ⟨j 0, j 1, eq_ix2 j⟩
  rw [addf_apply]
  refine (congrArg₂ (· + ·) ?_ ?_).trans (dense_apply x w b p q).symm
  · exact Cert.PlainDot.hostDot_apply d hd x w p q
  · rw [Cert.Lib.InDim.row_spread, Cert.Lib.InDim.vec_as_row]

/-- The layer of a block of rows is that block of the layer: if `x0` holds rows o, o+1, … of `X`, then row r of
    the block's layer is row o + r of the whole layer. -/
theorem dense_rows {n r : ℕ} (X : (⟨2, ![n, 128]⟩ : Shape).Idx → EReal) (w : (⟨2, ![128, 128]⟩ : Shape).Idx → EReal)
    (b : (⟨1, ![128]⟩ : Shape).Idx → EReal) (x0 : (⟨2, ![r, 128]⟩ : Shape).Idx → EReal) (o : ℕ) (ho : o + r ≤ n)
    (hx : ∀ (i : Fin r) (k : Fin 128), x0 (ix2 i k) = X (ix2 ⟨o + i.val, by have := i.isLt; omega⟩ k))
    (i : Fin r) (q : Fin 128) :
    dense x0 w b (ix2 i q) = dense X w b (ix2 ⟨o + i.val, by have := i.isLt; omega⟩ q) := by
  rw [dense_apply, dense_apply]
  exact congrArg (· + b (ix1 q)) (Finset.sum_congr rfl fun k _ => by rw [hx i k])

end Cert.GraphConv

end
-- ==== Proof.Network.lean ====
/-
  The network the two programs compute, as one function of the five argument arrays.

  The graph has 50000 nodes and 600000 edges, edge e going from node src(e) to node dst(e). With
  sn(v) = 1 / sqrt(max(outdegree(v), 1)) and dn(v) = 1 / sqrt(max(indegree(v), 1)), one round of message passing takes
  node features h to

      aggregate h  (v, ·)  =  dn(v) * sum over edges e into v of  sn(src e) * h(src e, ·),

  and a layer k = 0 … 3 follows it with the dense map of Layer.lean at the k-th weight matrix and bias vector:

      net  =  dense₃ ∘ aggregate ∘ dense₂ ∘ aggregate ∘ dense₁ ∘ aggregate ∘ dense₀ ∘ aggregate    applied to feat.

  The degrees are scatter-added ones, the message a gather of rows (a negative endpoint counted from the end, as
  the host does), the sum over incoming edges a scatter-add into zeros. These host operations are the same in the
  kernel and in the reference, literal for literal, so nothing here is ever opened: the definitions below only NAME
  the host's own operations, and the proof that the two programs agree compares the names. The one place where
  the programs differ is the dense map, and that is `dense` on both sides (Layer.lean).
-/
import proofs.«125889_j90769838833737_1_alg».proof.KernelIdeal
import proofs.«125889_j90769838833737_1_alg».proof.Proof.Gen.KernelIdeal
import proofs.«125889_j90769838833737_1_alg».proof.Proof.Layer

noncomputable section

namespace Cert.KernelIdeal.Net

open Idealize.ShloMosaic Cert.KernelIdeal Cert.KernelIdeal.Gen Cert.GraphConv

/-- A per-node scale from the edges' endpoints at one end: the count of edges per node (ones scatter-added into
    zeros), raised to at least one, one over its square root, set as a column. -/
def scaleOf (e : IVec S600000 32) : FVec Ideal S50000x1 .f32 :=
  broadcastInDim S50000x1 ![0] bcast_S50000_S50000x1_0 (Host.rsqrt (F := Ideal) (maximumf (F := Ideal)
    (Host.scatterAdd (F := Ideal) scatter_S50000_S600000x1_S600000_n_0_0_1
      (broadcastInDim S50000 ![] bcast_S_S50000 (constant (F := Ideal) S_ .f32 0x00000000#32))
      (broadcastInDim S600000x1 ![0] bcast_S600000_S600000x1_0 e)
      (broadcastInDim S600000 ![] bcast_S_S600000 (constant (F := Ideal) S_ .f32 0x3F800000#32)))
    (broadcastInDim S50000 ![] bcast_S_S50000 (constant (F := Ideal) S_ .f32 0x3F800000#32))))

/-- One round of message passing: scale the rows by `sn`, gather the row of each edge's source, scatter-add it to
    the edge's destination, scale the rows by `dn`. -/
def aggregate (sn dn : FVec Ideal S50000x1 .f32) (src dst : IVec S600000 32) (h : FVec Ideal S50000x128 .f32) :
    FVec Ideal S50000x128 .f32 :=
  mulf (F := Ideal)
    (Host.scatterAdd (F := Ideal) scatter_S50000x128_S600000x1_S600000x128_1_0_0_1
      (broadcastInDim S50000x128 ![] bcast_S_S50000x128 (constant (F := Ideal) S_ .f32 0x00000000#32))
      (broadcastInDim S600000x1 ![0] bcast_S600000_S600000x1_0 dst)
      (Host.gather gather_S50000x128_S600000x1_S600000x128_1_0_n_n_0_1_1128
        (mulf (F := Ideal) h (broadcastInDim S50000x128 ![0, 1] bcast_S50000x1_S50000x128_0_1 sn))
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src))))
    (broadcastInDim S50000x128 ![0, 1] bcast_S50000x1_S50000x128_0_1 dn)

/-- The k-th weight matrix: the k-th slab of the [4, 128, 128] array, its unit axis dropped. -/
def weight0 (W : FVec Ideal S4x128x128 .f32) : FVec Ideal S128x128 .f32 :=
  shapeCast S128x128 (extractStridedSlice S1x128x128 ![0, 0, 0] W slices_S4x128x128_S1x128x128_0_0_0) shapeCasts_S1x128x128_S128x128
def weight1 (W : FVec Ideal S4x128x128 .f32) : FVec Ideal S128x128 .f32 :=
  shapeCast S128x128 (extractStridedSlice S1x128x128 ![1, 0, 0] W slices_S4x128x128_S1x128x128_1_0_0) shapeCasts_S1x128x128_S128x128
def weight2 (W : FVec Ideal S4x128x128 .f32) : FVec Ideal S128x128 .f32 :=
  shapeCast S128x128 (extractStridedSlice S1x128x128 ![2, 0, 0] W slices_S4x128x128_S1x128x128_2_0_0) shapeCasts_S1x128x128_S128x128
def weight3 (W : FVec Ideal S4x128x128 .f32) : FVec Ideal S128x128 .f32 :=
  shapeCast S128x128 (extractStridedSlice S1x128x128 ![3, 0, 0] W slices_S4x128x128_S1x128x128_3_0_0) shapeCasts_S1x128x128_S128x128

/-- The k-th bias vector: the k-th row of the [4, 128] array, its unit axis dropped. -/
def bias0 (b : FVec Ideal S4x128 .f32) : FVec Ideal S128 .f32 :=
  shapeCast S128 (extractStridedSlice S1x128 ![0, 0] b slices_S4x128_S1x128_0_0) shapeCasts_S1x128_S128
def bias1 (b : FVec Ideal S4x128 .f32) : FVec Ideal S128 .f32 :=
  shapeCast S128 (extractStridedSlice S1x128 ![1, 0] b slices_S4x128_S1x128_1_0) shapeCasts_S1x128_S128
def bias2 (b : FVec Ideal S4x128 .f32) : FVec Ideal S128 .f32 :=
  shapeCast S128 (extractStridedSlice S1x128 ![2, 0] b slices_S4x128_S1x128_2_0) shapeCasts_S1x128_S128
def bias3 (b : FVec Ideal S4x128 .f32) : FVec Ideal S128 .f32 :=
  shapeCast S128 (extractStridedSlice S1x128 ![3, 0] b slices_S4x128_S1x128_3_0) shapeCasts_S1x128_S128

/-- The four layers, each a round of message passing followed by the dense map. -/
def net (feat : FVec Ideal S50000x128 .f32) (src dst : IVec S600000 32) (W : FVec Ideal S4x128x128 .f32)
    (b : FVec Ideal S4x128 .f32) : FVec Ideal S50000x128 .f32 :=
  let sn := scaleOf src
  let dn := scaleOf dst
  let h1 := dense (n := 50000) (aggregate sn dn src dst feat) (weight0 W) (bias0 b)
  let h2 := dense (n := 50000) (aggregate sn dn src dst h1) (weight1 W) (bias1 b)
  let h3 := dense (n := 50000) (aggregate sn dn src dst h2) (weight2 W) (bias2 b)
  dense (n := 50000) (aggregate sn dn src dst h3) (weight3 W) (bias3 b)

end Cert.KernelIdeal.Net

end
-- ==== Proof.RegionValue.lean ====
/-
  What each region leaves in its output array.

  A region runs the body once per grid point t = 0 … 24. Point t is handed rows 2000 t … 2000 t + 1999 of the
  region's feature array, the whole 128 x 128 weight matrix and the whole bias vector, and writes rows 2000 t …
  2000 t + 1999 of the output array. The body computes the layer of what it is handed (Layer.lean, `body_eq`), the
  layer of a block of rows is that block of the layer (`dense_rows`), and the 25 blocks tile the 50000 rows. So the
  output array ends holding the layer of the three input arrays as the region found them, whatever those are: each
  statement below is about the region at arbitrary entry contents `V`.
-/
import proofs.«125889_j90769838833737_1_alg».proof.Proof.Gen.KernelIdeal.Frame
import proofs.«125889_j90769838833737_1_alg».proof.Proof.Layer

set_option maxRecDepth 16384

noncomputable section

namespace Cert.KernelIdeal.Net

open Idealize.ShloMosaic Idealize.ShloMosaic.TcCoe Idealize.ShloMosaic.ValueIdx Idealize.SL.Sem
open Idealize.ShloMosaic.Pipeline (Dat)
open Cert.KernelIdeal Cert.KernelIdeal.Gen Cert.GraphConv

/-- The body's rectangles start at the origin. -/
theorem origin2 : (![0, 0] : Fin 2 → Nat) = fun _ => 0 := funext fun a => by fin_cases a <;> rfl
theorem origin1 : (![0] : Fin 1 → Nat) = fun _ => 0 := funext fun a => by fin_cases a <;> rfl

variable (V : (c : Dev nD) → (b : Ref sig .tc) → Buf (Elt Ideal) ((c : Thread nD τ).loc b))

/-! ## Region 0: the layer of `main_v28`, `main_v30`, `main_v32` -/

/-- The body's arithmetic in region 0 is the layer of its three loaded blocks. -/
theorem body0_eq (x0 : Vec Ideal S2000x128 .f32) (x1 : Vec Ideal S128x128 .f32) (x2 : Vec Ideal S128 .f32) :
    k0_pay1 x0 x1 x2 = dense x0 x1 x2 :=
  body_eq dot_S2000x128_S128x128_S2000x128_1_0_0_1_n_n rfl x0 x1 x2 _ _ _ _ _ _

/-- The printed index maps over the grid: point t takes block row t of the features and of the output, and block
    0 of the weights and of the bias. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- What point t writes back is block t of the layer of the arrays as the region finds them: rows 2000 t … 2000 t +
    1999 of the layer depend on those rows of the features only, and the point has the whole weights and bias. -/
theorem flushed0 (c : Dev nD) (t : Fin cfg0.N) :
    (dat0 V c).flushed 3 t = ((cfg0.win 3).blk t).view.read (Elt Ideal)
      (dense (n := 50000) (V c main_v28) (V c main_v30) (V c main_v32)) := by
  show (cfg0.win 3).cut (grid0.coords t) ((dat0 V c).after 3 t) = _
  rw [after0_3]
  unfold out0_3
  rw [View.canon_unit_zero origin2]
  simp only [View.ld_unit_zero (S := S2000x128) origin2, View.ld_unit_zero (S := S128x128) origin2,
    View.ld_unit_zero (S := S128) origin1]
  rw [body0_eq]
  obtain ⟨e00, e01, e10, e11, e20, e30, e31⟩ := blocks0 t
  have ht : t.val < 25 := lt_of_lt_of_eq t.isLt (N_0 : cfg0.N = 25)
  have hw : iblk0 V c 1 t = V c main_v30 := funext fun y => by
    show V c main_v30 (((cfg0.win 1).blk t).view.emb y) = V c main_v30 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  have hb : iblk0 V c 2 t = V c main_v32 := funext fun y => by
    show V c main_v32 (((cfg0.win 2).blk t).view.emb y) = V c main_v32 y
    refine congrArg _ (funext fun a => Fin.ext ?_)
    match a with
    | ⟨0, _⟩ => show win0_2.index t (0 : Fin 1) * 128 + 1 * (y 0).val = (y 0).val; omega
  rw [hw, hb]
  funext j
  have hj0 : (j 0).val < 2000 := (j 0).isLt
  have hj1 : (j 1).val < 128 := (j 1).isLt
  have hrows := dense_rows (n := 50000) (r := 2000) (V c main_v28) (V c main_v30) (V c main_v32) (iblk0 V c 0 t)
    (t.val * 2000) (by omega) (fun i k => by
      show V c main_v28 (((cfg0.win 0).blk t).view.emb (ix2 i k)) = _
      refine congrArg _ (funext fun a => Fin.ext ?_)
      match a with
      | ⟨0, _⟩ => show win0_0.index t (0 : Fin 2) * 2000 + 1 * i.val = t.val * 2000 + i.val; omega
      | ⟨1, _⟩ => show win0_0.index t (1 : Fin 2) * 128 + 1 * k.val = k.val; omega)
    ⟨(j 0).val, hj0⟩ ⟨(j 1).val, hj1⟩
  refine (congrArg (dense (iblk0 V c 0 t) (V c main_v30) (V c main_v32)) (eq_ix2 j)).trans (hrows.trans ?_)
  show _ = dense (n := 50000) (V c main_v28) (V c main_v30) (V c main_v32) (((cfg0.win 3).blk t).view.emb j)
  refine congrArg _ (funext fun a => Fin.ext ?_)
  match a with
  | ⟨0, _⟩ => show t.val * 2000 + (j 0).val = win0_3.index t (0 : Fin 2) * 2000 + 1 * (j 0).val; omega
  | ⟨1, _⟩ => show (j 1).val = win0_3.index t (1 : Fin 2) * 128 + 1 * (j 1).val; omega

/-- Every row of the output lies in the block of the point that row's number divided by 2000 names. -/
theorem tiled0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  let t : Fin cfg0.N := ⟨(i 0).val / 2000, lt_of_lt_of_eq (by omega : (i 0).val / 2000 < 25) hN.symm⟩
  obtain ⟨-, -, -, -, -, e30, e31⟩ := blocks0 t
  have ht : t.val = (i 0).val / 2000 := rfl
  refine ⟨t, flush0_3 t, ?_⟩
  show i ∈ ((View.whole main_v33).slice (win0_3.rect t)).set
  rw [View.set_slice_whole, Rect.mem_set_unit]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- Region 0 leaves its output array at the layer of its three input arrays as it found them. -/
theorem region0 (c : Dev nD) :
    (dat0 V c).arrAt 3 cfg0.N = dense (n := 50000) (V c main_v28) (V c main_v30) (V c main_v32) :=
  (dat0 V c).arrAt_eq_of_cover 3 _ (fun t _ => flushed0 V c t) (tiled0)

/-! ## Region 1: the layer of `main_v47`, `main_v49`, `main_v51` -/

/-- The body's arithmetic in region 1 is the layer of its three loaded blocks. -/
theorem body1_eq (x0 : Vec Ideal S2000x128 .f32) (x1 : Vec Ideal S128x128 .f32) (x2 : Vec Ideal S128 .f32) :
    k1_pay1 x0 x1 x2 = dense x0 x1 x2 :=
  body_eq dot_S2000x128_S128x128_S2000x128_1_0_0_1_n_n rfl x0 x1 x2 _ _ _ _ _ _

/-- The printed index maps over the grid: point t takes block row t of the features and of the output, and block
    0 of the weights and of the bias. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- What point t writes back is block t of the layer of the arrays as the region finds them: rows 2000 t … 2000 t +
    1999 of the layer depend on those rows of the features only, and the point has the whole weights and bias. -/
theorem flushed1 (c : Dev nD) (t : Fin cfg1.N) :
    (dat1 V c).flushed 3 t = ((cfg1.win 3).blk t).view.read (Elt Ideal)
      (dense (n := 50000) (V c main_v47) (V c main_v49) (V c main_v51)) := by
  show (cfg1.win 3).cut (grid1.coords t) ((dat1 V c).after 3 t) = _
  rw [after1_3]
  unfold out1_3
  rw [View.canon_unit_zero origin2]
  simp only [View.ld_unit_zero (S := S2000x128) origin2, View.ld_unit_zero (S := S128x128) origin2,
    View.ld_unit_zero (S := S128) origin1]
  rw [body1_eq]
  obtain ⟨e00, e01, e10, e11, e20, e30, e31⟩ := blocks1 t
  have ht : t.val < 25 := lt_of_lt_of_eq t.isLt (N_1 : cfg1.N = 25)
  have hw : iblk1 V c 1 t = V c main_v49 := funext fun y => by
    show V c main_v49 (((cfg1.win 1).blk t).view.emb y) = V c main_v49 y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  have hb : iblk1 V c 2 t = V c main_v51 := funext fun y => by
    show V c main_v51 (((cfg1.win 2).blk t).view.emb y) = V c main_v51 y
    refine congrArg _ (funext fun a => Fin.ext ?_)
    match a with
    | ⟨0, _⟩ => show win1_2.index t (0 : Fin 1) * 128 + 1 * (y 0).val = (y 0).val; omega
  rw [hw, hb]
  funext j
  have hj0 : (j 0).val < 2000 := (j 0).isLt
  have hj1 : (j 1).val < 128 := (j 1).isLt
  have hrows := dense_rows (n := 50000) (r := 2000) (V c main_v47) (V c main_v49) (V c main_v51) (iblk1 V c 0 t)
    (t.val * 2000) (by omega) (fun i k => by
      show V c main_v47 (((cfg1.win 0).blk t).view.emb (ix2 i k)) = _
      refine congrArg _ (funext fun a => Fin.ext ?_)
      match a with
      | ⟨0, _⟩ => show win1_0.index t (0 : Fin 2) * 2000 + 1 * i.val = t.val * 2000 + i.val; omega
      | ⟨1, _⟩ => show win1_0.index t (1 : Fin 2) * 128 + 1 * k.val = k.val; omega)
    ⟨(j 0).val, hj0⟩ ⟨(j 1).val, hj1⟩
  refine (congrArg (dense (iblk1 V c 0 t) (V c main_v49) (V c main_v51)) (eq_ix2 j)).trans (hrows.trans ?_)
  show _ = dense (n := 50000) (V c main_v47) (V c main_v49) (V c main_v51) (((cfg1.win 3).blk t).view.emb j)
  refine congrArg _ (funext fun a => Fin.ext ?_)
  match a with
  | ⟨0, _⟩ => show t.val * 2000 + (j 0).val = win1_3.index t (0 : Fin 2) * 2000 + 1 * (j 0).val; omega
  | ⟨1, _⟩ => show (j 1).val = win1_3.index t (1 : Fin 2) * 128 + 1 * (j 1).val; omega

/-- Every row of the output lies in the block of the point that row's number divided by 2000 names. -/
theorem tiled1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := N_1
  let t : Fin cfg1.N := ⟨(i 0).val / 2000, lt_of_lt_of_eq (by omega : (i 0).val / 2000 < 25) hN.symm⟩
  obtain ⟨-, -, -, -, -, e30, e31⟩ := blocks1 t
  have ht : t.val = (i 0).val / 2000 := rfl
  refine ⟨t, flush1_3 t, ?_⟩
  show i ∈ ((View.whole main_v52).slice (win1_3.rect t)).set
  rw [View.set_slice_whole, Rect.mem_set_unit]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- Region 1 leaves its output array at the layer of its three input arrays as it found them. -/
theorem region1 (c : Dev nD) :
    (dat1 V c).arrAt 3 cfg1.N = dense (n := 50000) (V c main_v47) (V c main_v49) (V c main_v51) :=
  (dat1 V c).arrAt_eq_of_cover 3 _ (fun t _ => flushed1 V c t) (tiled1)

/-! ## Region 2: the layer of `main_v66`, `main_v68`, `main_v70` -/

/-- The body's arithmetic in region 2 is the layer of its three loaded blocks. -/
theorem body2_eq (x0 : Vec Ideal S2000x128 .f32) (x1 : Vec Ideal S128x128 .f32) (x2 : Vec Ideal S128 .f32) :
    k2_pay1 x0 x1 x2 = dense x0 x1 x2 :=
  body_eq dot_S2000x128_S128x128_S2000x128_1_0_0_1_n_n rfl x0 x1 x2 _ _ _ _ _ _

/-- The printed index maps over the grid: point t takes block row t of the features and of the output, and block
    0 of the weights and of the bias. -/
theorem blocks2 : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 2) = t.val ∧ win2_3.index t (1 : Fin 2) = 0 :=
  (by decide +kernel : ∀ t : Fin grid2.N, _)

/-- What point t writes back is block t of the layer of the arrays as the region finds them: rows 2000 t … 2000 t +
    1999 of the layer depend on those rows of the features only, and the point has the whole weights and bias. -/
theorem flushed2 (c : Dev nD) (t : Fin cfg2.N) :
    (dat2 V c).flushed 3 t = ((cfg2.win 3).blk t).view.read (Elt Ideal)
      (dense (n := 50000) (V c main_v66) (V c main_v68) (V c main_v70)) := by
  show (cfg2.win 3).cut (grid2.coords t) ((dat2 V c).after 3 t) = _
  rw [after2_3]
  unfold out2_3
  rw [View.canon_unit_zero origin2]
  simp only [View.ld_unit_zero (S := S2000x128) origin2, View.ld_unit_zero (S := S128x128) origin2,
    View.ld_unit_zero (S := S128) origin1]
  rw [body2_eq]
  obtain ⟨e00, e01, e10, e11, e20, e30, e31⟩ := blocks2 t
  have ht : t.val < 25 := lt_of_lt_of_eq t.isLt (N_2 : cfg2.N = 25)
  have hw : iblk2 V c 1 t = V c main_v68 := funext fun y => by
    show V c main_v68 (((cfg2.win 1).blk t).view.emb y) = V c main_v68 y
    refine congrArg _ (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega
  have hb : iblk2 V c 2 t = V c main_v70 := funext fun y => by
    show V c main_v70 (((cfg2.win 2).blk t).view.emb y) = V c main_v70 y
    refine congrArg _ (funext fun a => Fin.ext ?_)
    match a with
    | ⟨0, _⟩ => show win2_2.index t (0 : Fin 1) * 128 + 1 * (y 0).val = (y 0).val; omega
  rw [hw, hb]
  funext j
  have hj0 : (j 0).val < 2000 := (j 0).isLt
  have hj1 : (j 1).val < 128 := (j 1).isLt
  have hrows := dense_rows (n := 50000) (r := 2000) (V c main_v66) (V c main_v68) (V c main_v70) (iblk2 V c 0 t)
    (t.val * 2000) (by omega) (fun i k => by
      show V c main_v66 (((cfg2.win 0).blk t).view.emb (ix2 i k)) = _
      refine congrArg _ (funext fun a => Fin.ext ?_)
      match a with
      | ⟨0, _⟩ => show win2_0.index t (0 : Fin 2) * 2000 + 1 * i.val = t.val * 2000 + i.val; omega
      | ⟨1, _⟩ => show win2_0.index t (1 : Fin 2) * 128 + 1 * k.val = k.val; omega)
    ⟨(j 0).val, hj0⟩ ⟨(j 1).val, hj1⟩
  refine (congrArg (dense (iblk2 V c 0 t) (V c main_v68) (V c main_v70)) (eq_ix2 j)).trans (hrows.trans ?_)
  show _ = dense (n := 50000) (V c main_v66) (V c main_v68) (V c main_v70) (((cfg2.win 3).blk t).view.emb j)
  refine congrArg _ (funext fun a => Fin.ext ?_)
  match a with
  | ⟨0, _⟩ => show t.val * 2000 + (j 0).val = win2_3.index t (0 : Fin 2) * 2000 + 1 * (j 0).val; omega
  | ⟨1, _⟩ => show (j 1).val = win2_3.index t (1 : Fin 2) * 128 + 1 * (j 1).val; omega

/-- Every row of the output lies in the block of the point that row's number divided by 2000 names. -/
theorem tiled2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 25 := N_2
  let t : Fin cfg2.N := ⟨(i 0).val / 2000, lt_of_lt_of_eq (by omega : (i 0).val / 2000 < 25) hN.symm⟩
  obtain ⟨-, -, -, -, -, e30, e31⟩ := blocks2 t
  have ht : t.val = (i 0).val / 2000 := rfl
  refine ⟨t, flush2_3 t, ?_⟩
  show i ∈ ((View.whole main_v71).slice (win2_3.rect t)).set
  rw [View.set_slice_whole, Rect.mem_set_unit]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- Region 2 leaves its output array at the layer of its three input arrays as it found them. -/
theorem region2 (c : Dev nD) :
    (dat2 V c).arrAt 3 cfg2.N = dense (n := 50000) (V c main_v66) (V c main_v68) (V c main_v70) :=
  (dat2 V c).arrAt_eq_of_cover 3 _ (fun t _ => flushed2 V c t) (tiled2)

/-! ## Region 3: the layer of `main_v85`, `main_v87`, `main_v89` -/

/-- The body's arithmetic in region 3 is the layer of its three loaded blocks. -/
theorem body3_eq (x0 : Vec Ideal S2000x128 .f32) (x1 : Vec Ideal S128x128 .f32) (x2 : Vec Ideal S128 .f32) :
    k3_pay1 x0 x1 x2 = dense x0 x1 x2 :=
  body_eq dot_S2000x128_S128x128_S2000x128_1_0_0_1_n_n rfl x0 x1 x2 _ _ _ _ _ _

/-- The printed index maps over the grid: point t takes block row t of the features and of the output, and block
    0 of the weights and of the bias. -/
theorem blocks3 : ∀ t : Fin cfg3.N, win3_0.index t (0 : Fin 2) = t.val ∧ win3_0.index t (1 : Fin 2) = 0
    ∧ win3_1.index t (0 : Fin 2) = 0 ∧ win3_1.index t (1 : Fin 2) = 0 ∧ win3_2.index t (0 : Fin 1) = 0
    ∧ win3_3.index t (0 : Fin 2) = t.val ∧ win3_3.index t (1 : Fin 2) = 0 :=
  (by decide +kernel : ∀ t : Fin grid3.N, _)

/-- What point t writes back is block t of the layer of the arrays as the region finds them: rows 2000 t … 2000 t +
    1999 of the layer depend on those rows of the features only, and the point has the whole weights and bias. -/
theorem flushed3 (c : Dev nD) (t : Fin cfg3.N) :
    (dat3 V c).flushed 3 t = ((cfg3.win 3).blk t).view.read (Elt Ideal)
      (dense (n := 50000) (V c main_v85) (V c main_v87) (V c main_v89)) := by
  show (cfg3.win 3).cut (grid3.coords t) ((dat3 V c).after 3 t) = _
  rw [after3_3]
  unfold out3_3
  rw [View.canon_unit_zero origin2]
  simp only [View.ld_unit_zero (S := S2000x128) origin2, View.ld_unit_zero (S := S128x128) origin2,
    View.ld_unit_zero (S := S128) origin1]
  rw [body3_eq]
  obtain ⟨e00, e01, e10, e11, e20, e30, e31⟩ := blocks3 t
  have ht : t.val < 25 := lt_of_lt_of_eq t.isLt (N_3 : cfg3.N = 25)
  have hw : iblk3 V c 1 t = V c main_v87 := funext fun y => by
    show V c main_v87 (((cfg3.win 1).blk t).view.emb y) = V c main_v87 y
    refine congrArg _ (funext fun a => Fin.ext ?_)
    match a with
    | ⟨0, _⟩ => show win3_1.index t (0 : Fin 2) * 128 + 1 * (y 0).val = (y 0).val; omega
    | ⟨1, _⟩ => show win3_1.index t (1 : Fin 2) * 128 + 1 * (y 1).val = (y 1).val; omega
  have hb : iblk3 V c 2 t = V c main_v89 := funext fun y => by
    show V c main_v89 (((cfg3.win 2).blk t).view.emb y) = V c main_v89 y
    refine congrArg _ (funext fun a => Fin.ext ?_)
    match a with
    | ⟨0, _⟩ => show win3_2.index t (0 : Fin 1) * 128 + 1 * (y 0).val = (y 0).val; omega
  rw [hw, hb]
  funext j
  have hj0 : (j 0).val < 2000 := (j 0).isLt
  have hj1 : (j 1).val < 128 := (j 1).isLt
  have hrows := dense_rows (n := 50000) (r := 2000) (V c main_v85) (V c main_v87) (V c main_v89) (iblk3 V c 0 t)
    (t.val * 2000) (by omega) (fun i k => by
      show V c main_v85 (((cfg3.win 0).blk t).view.emb (ix2 i k)) = _
      refine congrArg _ (funext fun a => Fin.ext ?_)
      match a with
      | ⟨0, _⟩ => show win3_0.index t (0 : Fin 2) * 2000 + 1 * i.val = t.val * 2000 + i.val; omega
      | ⟨1, _⟩ => show win3_0.index t (1 : Fin 2) * 128 + 1 * k.val = k.val; omega)
    ⟨(j 0).val, hj0⟩ ⟨(j 1).val, hj1⟩
  refine (congrArg (dense (iblk3 V c 0 t) (V c main_v87) (V c main_v89)) (eq_ix2 j)).trans (hrows.trans ?_)
  show _ = dense (n := 50000) (V c main_v85) (V c main_v87) (V c main_v89) (((cfg3.win 3).blk t).view.emb j)
  refine congrArg _ (funext fun a => Fin.ext ?_)
  match a with
  | ⟨0, _⟩ => show t.val * 2000 + (j 0).val = win3_3.index t (0 : Fin 2) * 2000 + 1 * (j 0).val; omega
  | ⟨1, _⟩ => show (j 1).val = win3_3.index t (1 : Fin 2) * 128 + 1 * (j 1).val; omega

/-- Every row of the output lies in the block of the point that row's number divided by 2000 names. -/
theorem tiled3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 25 := N_3
  let t : Fin cfg3.N := ⟨(i 0).val / 2000, lt_of_lt_of_eq (by omega : (i 0).val / 2000 < 25) hN.symm⟩
  obtain ⟨-, -, -, -, -, e30, e31⟩ := blocks3 t
  have ht : t.val = (i 0).val / 2000 := rfl
  refine ⟨t, flush3_3 t, ?_⟩
  show i ∈ ((View.whole main_v90).slice (win3_3.rect t)).set
  rw [View.set_slice_whole, Rect.mem_set_unit]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 128 ≤ (i 1).val ∧ (i 1).val < win3_3.index t (1 : Fin 2) * 128 + 128; omega

/-- Region 3 leaves its output array at the layer of its three input arrays as it found them. -/
theorem region3 (c : Dev nD) :
    (dat3 V c).arrAt 3 cfg3.N = dense (n := 50000) (V c main_v85) (V c main_v87) (V c main_v89) :=
  (dat3 V c).arrAt_eq_of_cover 3 _ (fun t _ => flushed3 V c t) (tiled3)

end Cert.KernelIdeal.Net

end
-- ==== Proof.KernelValue.lean ====
/-
  The host operations between the regions, read as the network's pieces, and the whole run folded into `net`.

  A stretch of host operations takes the buffers' contents W to new contents; what a buffer holds afterwards is the
  composition of the operations that lead to it, applied to what W holds at the buffers they start from. Stretch 0
  computes, from the arguments, the two scales (kept in `main_v12`, `main_v14` for the later stretches), the first
  aggregate, and the first weight matrix and bias vector. Stretch k = 1, 2, 3 computes, from the previous region's
  output, the kept scales and the arguments, the k-th aggregate, weight matrix and bias vector. Each is stated for
  ARBITRARY incoming contents W: the operations are unfolded in order and the result compared with the network's
  named pieces, which are those same operations.

  A region replaces its output array by the layer of its three inputs (RegionValue.lean) and keeps every other
  buffer. So the scales and the arguments are carried unchanged through all eight boundaries (`Carried`), the
  features go through aggregate, dense, aggregate, dense, … in turn, and the last region's output — the result
  array — ends holding `net` of the five arguments.
-/
import proofs.«125889_j90769838833737_1_alg».proof.Proof.Gen.KernelIdeal.Frame
import proofs.«125889_j90769838833737_1_alg».proof.Proof.Network
import proofs.«125889_j90769838833737_1_alg».proof.Proof.RegionValue
import Idealize.ShloMosaic.Lib.StableHlo.Run

set_option maxRecDepth 16384

noncomputable section

namespace Cert.KernelIdeal.Net

open Idealize.ShloMosaic Idealize.ShloMosaic.TcCoe Idealize.SL.Sem Idealize.ShloMosaic.StableHlo
open Cert.KernelIdeal Cert.KernelIdeal.Gen Cert.GraphConv

section Stretches

variable (W : Valuation τ sig (Elt Ideal))

/-! ## Stretch 0: from the arguments to region 0's three inputs and the two kept scales -/

theorem s0_feat : StableHlo.after hostOps0 W (Proc.devRef .tc main_v28)
    = aggregate (scaleOf (W (Proc.devRef .tc main_arg1))) (scaleOf (W (Proc.devRef .tc main_arg2))) (W (Proc.devRef .tc main_arg1)) (W (Proc.devRef .tc main_arg2)) (W (Proc.devRef .tc main_arg0)) := by
  after_results_simp <;> rfl
theorem s0_weight : StableHlo.after hostOps0 W (Proc.devRef .tc main_v30) = weight0 (W (Proc.devRef .tc main_arg3)) := by
  after_results_simp <;> rfl
theorem s0_bias : StableHlo.after hostOps0 W (Proc.devRef .tc main_v32) = bias0 (W (Proc.devRef .tc main_arg4)) := by
  after_results_simp <;> rfl
theorem s0_sn : StableHlo.after hostOps0 W (Proc.devRef .tc main_v12) = scaleOf (W (Proc.devRef .tc main_arg1)) := by
  after_results_simp <;> rfl
theorem s0_dn : StableHlo.after hostOps0 W (Proc.devRef .tc main_v14) = scaleOf (W (Proc.devRef .tc main_arg2)) := by
  after_results_simp <;> rfl
theorem s0_keep_main_arg1 : StableHlo.after hostOps0 W (Proc.devRef .tc main_arg1) = W (Proc.devRef .tc main_arg1) := by
  after_results_simp <;> rfl
theorem s0_keep_main_arg2 : StableHlo.after hostOps0 W (Proc.devRef .tc main_arg2) = W (Proc.devRef .tc main_arg2) := by
  after_results_simp <;> rfl
theorem s0_keep_main_arg3 : StableHlo.after hostOps0 W (Proc.devRef .tc main_arg3) = W (Proc.devRef .tc main_arg3) := by
  after_results_simp <;> rfl
theorem s0_keep_main_arg4 : StableHlo.after hostOps0 W (Proc.devRef .tc main_arg4) = W (Proc.devRef .tc main_arg4) := by
  after_results_simp <;> rfl

/-! ## Stretch 1: from region 0's output to region 1's three inputs -/

theorem s1_feat : StableHlo.after hostOps1 W (Proc.devRef .tc main_v47)
    = aggregate (W (Proc.devRef .tc main_v12)) (W (Proc.devRef .tc main_v14)) (W (Proc.devRef .tc main_arg1)) (W (Proc.devRef .tc main_arg2)) (W (Proc.devRef .tc main_v33)) := by
  after_results_simp <;> rfl
theorem s1_weight : StableHlo.after hostOps1 W (Proc.devRef .tc main_v49) = weight1 (W (Proc.devRef .tc main_arg3)) := by
  after_results_simp <;> rfl
theorem s1_bias : StableHlo.after hostOps1 W (Proc.devRef .tc main_v51) = bias1 (W (Proc.devRef .tc main_arg4)) := by
  after_results_simp <;> rfl
theorem s1_keep_main_v12 : StableHlo.after hostOps1 W (Proc.devRef .tc main_v12) = W (Proc.devRef .tc main_v12) := by
  after_results_simp <;> rfl
theorem s1_keep_main_v14 : StableHlo.after hostOps1 W (Proc.devRef .tc main_v14) = W (Proc.devRef .tc main_v14) := by
  after_results_simp <;> rfl
theorem s1_keep_main_arg1 : StableHlo.after hostOps1 W (Proc.devRef .tc main_arg1) = W (Proc.devRef .tc main_arg1) := by
  after_results_simp <;> rfl
theorem s1_keep_main_arg2 : StableHlo.after hostOps1 W (Proc.devRef .tc main_arg2) = W (Proc.devRef .tc main_arg2) := by
  after_results_simp <;> rfl
theorem s1_keep_main_arg3 : StableHlo.after hostOps1 W (Proc.devRef .tc main_arg3) = W (Proc.devRef .tc main_arg3) := by
  after_results_simp <;> rfl
theorem s1_keep_main_arg4 : StableHlo.after hostOps1 W (Proc.devRef .tc main_arg4) = W (Proc.devRef .tc main_arg4) := by
  after_results_simp <;> rfl

/-! ## Stretch 2: from region 1's output to region 2's three inputs -/

theorem s2_feat : StableHlo.after hostOps2 W (Proc.devRef .tc main_v66)
    = aggregate (W (Proc.devRef .tc main_v12)) (W (Proc.devRef .tc main_v14)) (W (Proc.devRef .tc main_arg1)) (W (Proc.devRef .tc main_arg2)) (W (Proc.devRef .tc main_v52)) := by
  after_results_simp <;> rfl
theorem s2_weight : StableHlo.after hostOps2 W (Proc.devRef .tc main_v68) = weight2 (W (Proc.devRef .tc main_arg3)) := by
  after_results_simp <;> rfl
theorem s2_bias : StableHlo.after hostOps2 W (Proc.devRef .tc main_v70) = bias2 (W (Proc.devRef .tc main_arg4)) := by
  after_results_simp <;> rfl
theorem s2_keep_main_v12 : StableHlo.after hostOps2 W (Proc.devRef .tc main_v12) = W (Proc.devRef .tc main_v12) := by
  after_results_simp <;> rfl
theorem s2_keep_main_v14 : StableHlo.after hostOps2 W (Proc.devRef .tc main_v14) = W (Proc.devRef .tc main_v14) := by
  after_results_simp <;> rfl
theorem s2_keep_main_arg1 : StableHlo.after hostOps2 W (Proc.devRef .tc main_arg1) = W (Proc.devRef .tc main_arg1) := by
  after_results_simp <;> rfl
theorem s2_keep_main_arg2 : StableHlo.after hostOps2 W (Proc.devRef .tc main_arg2) = W (Proc.devRef .tc main_arg2) := by
  after_results_simp <;> rfl
theorem s2_keep_main_arg3 : StableHlo.after hostOps2 W (Proc.devRef .tc main_arg3) = W (Proc.devRef .tc main_arg3) := by
  after_results_simp <;> rfl
theorem s2_keep_main_arg4 : StableHlo.after hostOps2 W (Proc.devRef .tc main_arg4) = W (Proc.devRef .tc main_arg4) := by
  after_results_simp <;> rfl

/-! ## Stretch 3: from region 2's output to region 3's three inputs -/

theorem s3_feat : StableHlo.after hostOps3 W (Proc.devRef .tc main_v85)
    = aggregate (W (Proc.devRef .tc main_v12)) (W (Proc.devRef .tc main_v14)) (W (Proc.devRef .tc main_arg1)) (W (Proc.devRef .tc main_arg2)) (W (Proc.devRef .tc main_v71)) := by
  after_results_simp <;> rfl
theorem s3_weight : StableHlo.after hostOps3 W (Proc.devRef .tc main_v87) = weight3 (W (Proc.devRef .tc main_arg3)) := by
  after_results_simp <;> rfl
theorem s3_bias : StableHlo.after hostOps3 W (Proc.devRef .tc main_v89) = bias3 (W (Proc.devRef .tc main_arg4)) := by
  after_results_simp <;> rfl
theorem s3_keep_main_v12 : StableHlo.after hostOps3 W (Proc.devRef .tc main_v12) = W (Proc.devRef .tc main_v12) := by
  after_results_simp <;> rfl
theorem s3_keep_main_v14 : StableHlo.after hostOps3 W (Proc.devRef .tc main_v14) = W (Proc.devRef .tc main_v14) := by
  after_results_simp <;> rfl
theorem s3_keep_main_arg1 : StableHlo.after hostOps3 W (Proc.devRef .tc main_arg1) = W (Proc.devRef .tc main_arg1) := by
  after_results_simp <;> rfl
theorem s3_keep_main_arg2 : StableHlo.after hostOps3 W (Proc.devRef .tc main_arg2) = W (Proc.devRef .tc main_arg2) := by
  after_results_simp <;> rfl
theorem s3_keep_main_arg3 : StableHlo.after hostOps3 W (Proc.devRef .tc main_arg3) = W (Proc.devRef .tc main_arg3) := by
  after_results_simp <;> rfl
theorem s3_keep_main_arg4 : StableHlo.after hostOps3 W (Proc.devRef .tc main_arg4) = W (Proc.devRef .tc main_arg4) := by
  after_results_simp <;> rfl

end Stretches

/-! ## What every boundary carries -/

/-- The buffers every later stretch reads besides the features: the two scales and four of the arguments. -/
structure Carried (W : Valuation τ sig (Elt Ideal)) (src dst : IVec S600000 32) (Wt : FVec Ideal S4x128x128 .f32)
    (b : FVec Ideal S4x128 .f32) : Prop where
  sn : W (Proc.devRef .tc main_v12) = scaleOf src
  dn : W (Proc.devRef .tc main_v14) = scaleOf dst
  src : W (Proc.devRef .tc main_arg1) = src
  dst : W (Proc.devRef .tc main_arg2) = dst
  wt : W (Proc.devRef .tc main_arg3) = Wt
  bs : W (Proc.devRef .tc main_arg4) = b

/-- Stretch 1 writes none of them. -/
theorem Carried.host1 {W : Valuation τ sig (Elt Ideal)} {src dst : IVec S600000 32} {Wt : FVec Ideal S4x128x128 .f32}
    {b : FVec Ideal S4x128 .f32} (h : Carried W src dst Wt b) : Carried (StableHlo.after hostOps1 W) src dst Wt b :=
  ⟨(s1_keep_main_v12 W).trans h.sn, (s1_keep_main_v14 W).trans h.dn, (s1_keep_main_arg1 W).trans h.src,
   (s1_keep_main_arg2 W).trans h.dst, (s1_keep_main_arg3 W).trans h.wt, (s1_keep_main_arg4 W).trans h.bs⟩

/-- Stretch 2 writes none of them. -/
theorem Carried.host2 {W : Valuation τ sig (Elt Ideal)} {src dst : IVec S600000 32} {Wt : FVec Ideal S4x128x128 .f32}
    {b : FVec Ideal S4x128 .f32} (h : Carried W src dst Wt b) : Carried (StableHlo.after hostOps2 W) src dst Wt b :=
  ⟨(s2_keep_main_v12 W).trans h.sn, (s2_keep_main_v14 W).trans h.dn, (s2_keep_main_arg1 W).trans h.src,
   (s2_keep_main_arg2 W).trans h.dst, (s2_keep_main_arg3 W).trans h.wt, (s2_keep_main_arg4 W).trans h.bs⟩

/-- Stretch 3 writes none of them. -/
theorem Carried.host3 {W : Valuation τ sig (Elt Ideal)} {src dst : IVec S600000 32} {Wt : FVec Ideal S4x128x128 .f32}
    {b : FVec Ideal S4x128 .f32} (h : Carried W src dst Wt b) : Carried (StableHlo.after hostOps3 W) src dst Wt b :=
  ⟨(s3_keep_main_v12 W).trans h.sn, (s3_keep_main_v14 W).trans h.dn, (s3_keep_main_arg1 W).trans h.src,
   (s3_keep_main_arg2 W).trans h.dst, (s3_keep_main_arg3 W).trans h.wt, (s3_keep_main_arg4 W).trans h.bs⟩

variable (m : (ℓ : Loc nD τ sig) → Buf (Elt Ideal) ℓ) (ρ : Dev nD → PrngReg)

/-- After stretch 0 they hold the scales of the two endpoint arrays and the arguments as launched. -/
theorem carried1 (c : Dev nD) : Carried (W1 m ρ c) (m ((c : Thread nD τ).loc main_arg1)) (m ((c : Thread nD τ).loc main_arg2))
    (m ((c : Thread nD τ).loc main_arg3)) (m ((c : Thread nD τ).loc main_arg4)) :=
  ⟨s0_sn (W0 m ρ c), s0_dn (W0 m ρ c), s0_keep_main_arg1 (W0 m ρ c), s0_keep_main_arg2 (W0 m ρ c),
   s0_keep_main_arg3 (W0 m ρ c), s0_keep_main_arg4 (W0 m ρ c)⟩

/-- Region 0 writes its output array only. -/
theorem carried_region0 (c : Dev nD) {src dst : IVec S600000 32} {Wt : FVec Ideal S4x128x128 .f32} {b : FVec Ideal S4x128 .f32}
    (h : Carried (W1 m ρ c) src dst Wt b) : Carried (W2 m ρ c) src dst Wt b :=
  ⟨(W2_of_ne m ρ c main_v12 (by decide)).trans h.sn, (W2_of_ne m ρ c main_v14 (by decide)).trans h.dn,
   (W2_of_ne m ρ c main_arg1 (by decide)).trans h.src, (W2_of_ne m ρ c main_arg2 (by decide)).trans h.dst,
   (W2_of_ne m ρ c main_arg3 (by decide)).trans h.wt, (W2_of_ne m ρ c main_arg4 (by decide)).trans h.bs⟩

/-- Region 1 writes its output array only. -/
theorem carried_region1 (c : Dev nD) {src dst : IVec S600000 32} {Wt : FVec Ideal S4x128x128 .f32} {b : FVec Ideal S4x128 .f32}
    (h : Carried (W3 m ρ c) src dst Wt b) : Carried (W4 m ρ c) src dst Wt b :=
  ⟨(W4_of_ne m ρ c main_v12 (by decide)).trans h.sn, (W4_of_ne m ρ c main_v14 (by decide)).trans h.dn,
   (W4_of_ne m ρ c main_arg1 (by decide)).trans h.src, (W4_of_ne m ρ c main_arg2 (by decide)).trans h.dst,
   (W4_of_ne m ρ c main_arg3 (by decide)).trans h.wt, (W4_of_ne m ρ c main_arg4 (by decide)).trans h.bs⟩

/-- Region 2 writes its output array only. -/
theorem carried_region2 (c : Dev nD) {src dst : IVec S600000 32} {Wt : FVec Ideal S4x128x128 .f32} {b : FVec Ideal S4x128 .f32}
    (h : Carried (W5 m ρ c) src dst Wt b) : Carried (W6 m ρ c) src dst Wt b :=
  ⟨(W6_of_ne m ρ c main_v12 (by decide)).trans h.sn, (W6_of_ne m ρ c main_v14 (by decide)).trans h.dn,
   (W6_of_ne m ρ c main_arg1 (by decide)).trans h.src, (W6_of_ne m ρ c main_arg2 (by decide)).trans h.dst,
   (W6_of_ne m ρ c main_arg3 (by decide)).trans h.wt, (W6_of_ne m ρ c main_arg4 (by decide)).trans h.bs⟩

/-- Region 3 writes its output array only. -/
theorem carried_region3 (c : Dev nD) {src dst : IVec S600000 32} {Wt : FVec Ideal S4x128x128 .f32} {b : FVec Ideal S4x128 .f32}
    (h : Carried (W7 m ρ c) src dst Wt b) : Carried (W8 m ρ c) src dst Wt b :=
  ⟨(W8_of_ne m ρ c main_v12 (by decide)).trans h.sn, (W8_of_ne m ρ c main_v14 (by decide)).trans h.dn,
   (W8_of_ne m ρ c main_arg1 (by decide)).trans h.src, (W8_of_ne m ρ c main_arg2 (by decide)).trans h.dst,
   (W8_of_ne m ρ c main_arg3 (by decide)).trans h.wt, (W8_of_ne m ρ c main_arg4 (by decide)).trans h.bs⟩

/-! ## The fold -/

/-- The result array after the run: the four-layer network of the five arguments. -/
theorem result_eq (c : Dev nD) :
    W8 m ρ c (Proc.devRef .tc main_v90) = net (m ((c : Thread nD τ).loc main_arg0)) (m ((c : Thread nD τ).loc main_arg1))
      (m ((c : Thread nD τ).loc main_arg2)) (m ((c : Thread nD τ).loc main_arg3)) (m ((c : Thread nD τ).loc main_arg4)) := by
  have k1 := carried1 m ρ c
  have k2 := carried_region0 m ρ c k1
  have k3 := k2.host1
  have k4 := carried_region1 m ρ c k3
  have k5 := k4.host2
  have k6 := carried_region2 m ρ c k5
  have k7 := k6.host3
  -- layer 0
  have h1 : W2 m ρ c (Proc.devRef .tc main_v33) = dense (n := 50000) (W1 m ρ c (Proc.devRef .tc main_v28)) (W1 m ρ c (Proc.devRef .tc main_v30)) (W1 m ρ c (Proc.devRef .tc main_v32)) :=
    (W2_arr m ρ c 3).trans (region0 (V1 m ρ) c)
  rw [show W1 m ρ c (Proc.devRef .tc main_v28) = _ from s0_feat (W0 m ρ c), show W1 m ρ c (Proc.devRef .tc main_v30) = _ from s0_weight (W0 m ρ c),
    show W1 m ρ c (Proc.devRef .tc main_v32) = _ from s0_bias (W0 m ρ c)] at h1
  -- layer 1
  have h2 : W4 m ρ c (Proc.devRef .tc main_v52) = dense (n := 50000) (W3 m ρ c (Proc.devRef .tc main_v47)) (W3 m ρ c (Proc.devRef .tc main_v49)) (W3 m ρ c (Proc.devRef .tc main_v51)) :=
    (W4_arr m ρ c 3).trans (region1 (V3 m ρ) c)
  rw [show W3 m ρ c (Proc.devRef .tc main_v47) = _ from s1_feat (W2 m ρ c), show W3 m ρ c (Proc.devRef .tc main_v49) = _ from s1_weight (W2 m ρ c),
    show W3 m ρ c (Proc.devRef .tc main_v51) = _ from s1_bias (W2 m ρ c), k2.sn, k2.dn, k2.src, k2.dst, k2.wt, k2.bs, h1] at h2
  -- layer 2
  have h3 : W6 m ρ c (Proc.devRef .tc main_v71) = dense (n := 50000) (W5 m ρ c (Proc.devRef .tc main_v66)) (W5 m ρ c (Proc.devRef .tc main_v68)) (W5 m ρ c (Proc.devRef .tc main_v70)) :=
    (W6_arr m ρ c 3).trans (region2 (V5 m ρ) c)
  rw [show W5 m ρ c (Proc.devRef .tc main_v66) = _ from s2_feat (W4 m ρ c), show W5 m ρ c (Proc.devRef .tc main_v68) = _ from s2_weight (W4 m ρ c),
    show W5 m ρ c (Proc.devRef .tc main_v70) = _ from s2_bias (W4 m ρ c), k4.sn, k4.dn, k4.src, k4.dst, k4.wt, k4.bs, h2] at h3
  -- layer 3
  have h4 : W8 m ρ c (Proc.devRef .tc main_v90) = dense (n := 50000) (W7 m ρ c (Proc.devRef .tc main_v85)) (W7 m ρ c (Proc.devRef .tc main_v87)) (W7 m ρ c (Proc.devRef .tc main_v89)) :=
    (W8_arr m ρ c 3).trans (region3 (V7 m ρ) c)
  rw [show W7 m ρ c (Proc.devRef .tc main_v85) = _ from s3_feat (W6 m ρ c), show W7 m ρ c (Proc.devRef .tc main_v87) = _ from s3_weight (W6 m ρ c),
    show W7 m ρ c (Proc.devRef .tc main_v89) = _ from s3_bias (W6 m ρ c), k6.sn, k6.dn, k6.src, k6.dst, k6.wt, k6.bs, h3] at h4
  exact h4

end Cert.KernelIdeal.Net

end
-- ==== Proof.RefValue.lean ====
/-
  The reference computes the same network.

  The reference's run ends with its result at the composition of its own host operations applied to the five
  arguments. That composition is the network of Network.lean: the same scales, the same four rounds of message
  passing, and after each round a dot_general with the round's weight matrix, the bias set as a row, spread over
  the rows and added — which is the dense map (Layer.lean, `host_eq`). So the four dense maps of `net` are written
  back as the host's product, bias row and sum, and what remains on both sides is the same host operations on the
  same arguments, operation for operation.
-/
import proofs.«125889_j90769838833737_1_alg».proof.Proof.Gen.ReferenceIdeal.Run
import proofs.«125889_j90769838833737_1_alg».proof.Proof.Network

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Value Cert.GraphConv

/-- The reference's result term is the network of its five arguments. -/
theorem result_eq (m : (ℓ : Loc nD τ sig) → Buf (Elt Ideal) ℓ) (c : Dev nD) :
    res_main_v102 (F := Ideal) m c
      = Cert.KernelIdeal.Net.net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  unfold res_main_v102 Cert.KernelIdeal.Net.net
  simp only [← host_eq (n := 50000) dot_S50000x128_S128x128_S50000x128_1_0_0_1_n_n rfl _ _ _ bcast_S128_S1x128_1
    bcast_S1x128_S50000x128_0_1]
  rfl

end Cert.ReferenceIdeal.RefValue

end
-- ==== Proof.lean ====
/-
  The kernel and the reference compute one function on the extended reals.

  The program is a four-layer graph convolution over 50000 nodes and 600000 edges. Both programs compute the degree
  scales, and then four times: scale the rows, gather each edge's source row, scatter-add it to the edge's
  destination, scale the rows, and apply a dense map x ↦ x · W[k] + b[k]. They share every host operation of this,
  literal for literal; they differ only in the dense map, which the kernel computes on the matrix unit in 25 blocks
  of 2000 rows (operands narrowed to bf16, accumulated in f32, bias added in the block) and the reference by one
  dot_general over all rows plus a broadcast bias. On the extended reals a change of float format is the identity
  and both products are the sum over the 128 contracted positions, so both dense maps are the function `dense` of
  Layer.lean, and both programs are `net` of Network.lean:

  • the kernel: its run ends with the result array at the last boundary's contents (KernelRun.lean); each region
    leaves the dense map of its inputs as it found them (RegionValue.lean); each stretch of host operations is a
    round of message passing and the slices of the weights (KernelValue.lean, where the eight boundaries are
    folded into `net`);
  • the reference: its generated run ends with the composed host operations, which are `net` (RefValue.lean).

  No finiteness is used: the two sides are the same expression, not two expressions joined by a law that could
  fail at an infinity. The ideal pass rewrote nothing, so there is nothing to preserve; the kernels' frames are the
  generated ones, the reference's is its generated run with the result dropped.
-/
import proofs.«125889_j90769838833737_1_alg».proof.Defs
import proofs.«125889_j90769838833737_1_alg».proof.Proof.Gen.Kernel
import proofs.«125889_j90769838833737_1_alg».proof.Proof.Gen.Kernel.Skeleton
import proofs.«125889_j90769838833737_1_alg».proof.Proof.Gen.Kernel.Launch
import proofs.«125889_j90769838833737_1_alg».proof.Proof.Gen.Kernel.Points
import proofs.«125889_j90769838833737_1_alg».proof.Proof.Gen.Kernel.Frame
import proofs.«125889_j90769838833737_1_alg».proof.Proof.Gen.KernelIdeal
import proofs.«125889_j90769838833737_1_alg».proof.Proof.Gen.KernelIdeal.Skeleton
import proofs.«125889_j90769838833737_1_alg».proof.Proof.Gen.KernelIdeal.Launch
import proofs.«125889_j90769838833737_1_alg».proof.Proof.Gen.KernelIdeal.Points
import proofs.«125889_j90769838833737_1_alg».proof.Proof.Gen.KernelIdeal.Frame
import proofs.«125889_j90769838833737_1_alg».proof.Proof.Gen.ReferenceIdeal
import proofs.«125889_j90769838833737_1_alg».proof.Proof.Gen.ReferenceIdeal.Run
import proofs.«125889_j90769838833737_1_alg».proof.Proof.Gen.ReferenceIdeal.Read
import proofs.«125889_j90769838833737_1_alg».proof.Proof.Gen.Pre_finite_inputs
import proofs.«125889_j90769838833737_1_alg».proof.Proof.KernelRun
import proofs.«125889_j90769838833737_1_alg».proof.Proof.KernelValue
import proofs.«125889_j90769838833737_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with their result at `net` of the arguments, which agree. -/
theorem algebraic : Cert.algebraic_KernelIdeal_ReferenceIdeal := by
  intro m ρ m' ρ' _ hagree
  refine ⟨fun c => Cert.KernelIdeal.Net.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Net.result_eq m ρ c), (h c).2⟩)
      (Cert.KernelIdeal.Net.run_kept (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
